-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S2000x1024 : Shape := ⟨2, ![2000, 1024]⟩
abbrev S200x2000 : Shape := ⟨2, ![200, 2000]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S2000x1024 : S_.BroadcastsInDim S2000x1024 (![] : Fin 0 → Fin S2000x1024.rank)
  reducesTo_S2000x1024_S_d0_1 : S2000x1024.ReducesTo [0, 1] S_
  bcast_S_S200x2000 : S_.BroadcastsInDim S200x2000 (![] : Fin 0 → Fin S200x2000.rank)
  reducesTo_S200x2000_S_d0_1 : S200x2000.ReducesTo [0, 1] S_

variable [Facts]

def fn {F : FTy → Type} [FloatOps F] (main_arg0 : FVec F S64x256x1024 .f32) (main_arg1 : FVec F S2000x1024 .f32) (main_arg2 : FVec F S200x2000 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S2000x1024 .f32 := Host.absf main_arg1
  let main_cst_0 : FVec F S_ .f32 := constant S_ .f32 0x7F800000#32
  let main_v5 : FVec F S2000x1024 .f32 := broadcastInDim S2000x1024 ![] bcast_S_S2000x1024 main_cst_0
  let main_v6 : IVec S2000x1024 1 := cmpf .olt main_v4 main_v5
  let main_c_1 : IVec S_ 1 := constantI S_ 1 1#1
  let main_v7 : IVec S_ 1 := (fun x v => Host.reduce IntOp.andi x v reducesTo_S2000x1024_S_d0_1 h_S_) main_v6 main_c_1
  let main_v8 : IVec S_ 1 := andi main_v3 main_v7
  let main_v9 : FVec F S200x2000 .f32 := Host.absf main_arg2
  let main_cst_2 : FVec F S_ .f32 := constant S_ .f32 0x7F800000#32
  let main_v10 : FVec F S200x2000 .f32 := broadcastInDim S200x2000 ![] bcast_S_S200x2000 main_cst_2
  let main_v11 : IVec S200x2000 1 := cmpf .olt main_v9 main_v10
  let main_c_3 : IVec S_ 1 := constantI S_ 1 1#1
  let main_v12 : IVec S_ 1 := (fun x v => Host.reduce IntOp.andi x v reducesTo_S200x2000_S_d0_1 h_S_) main_v11 main_c_3
  let main_v13 : IVec S_ 1 := andi main_v8 main_v12
  main_v13
-- ==== Kernel.lean ====
abbrev S64x256x1024 : Shape := ⟨3, ![64, 256, 1024]⟩
abbrev S2000x1024 : Shape := ⟨2, ![2000, 1024]⟩
abbrev S200x2000 : Shape := ⟨2, ![200, 2000]⟩
abbrev S64x2000x256 : Shape := ⟨3, ![64, 2000, 256]⟩
abbrev S64x2000x1 : Shape := ⟨3, ![64, 2000, 1]⟩
abbrev S1x256x1024 : Shape := ⟨3, ![1, 256, 1024]⟩
abbrev S1x2000x256 : Shape := ⟨3, ![1, 2000, 256]⟩
abbrev S1x2000x1 : Shape := ⟨3, ![1, 2000, 1]⟩
abbrev S256x1024 : Shape := ⟨2, ![256, 1024]⟩
abbrev S256 : Shape := ⟨1, ![256]⟩
abbrev S2000 : Shape := ⟨1, ![2000]⟩
abbrev S2000x256 : Shape := ⟨2, ![2000, 256]⟩
abbrev S1x256 : Shape := ⟨2, ![1, 256]⟩
abbrev S2000x1 : Shape := ⟨2, ![2000, 1]⟩
abbrev S64x2000 : Shape := ⟨2, ![64, 2000]⟩
abbrev S64x200 : Shape := ⟨2, ![64, 200]⟩

abbrev nBuf : Space → Nat
  | .hbm => 7
  | .vmem => 10
  | .smem => 0
  | _ => 0

abbrev bufTy : (tb : Table) → Fin (tcTables nBuf tb) → BufTy
  | .hbm, ⟨0, _⟩ => ⟨S64x256x1024, .f32⟩
  | .hbm, ⟨1, _⟩ => ⟨S2000x1024, .f32⟩
  | .hbm, ⟨2, _⟩ => ⟨S200x2000, .f32⟩
  | .hbm, ⟨3, _⟩ => ⟨S64x2000x256, .f32⟩
  | .hbm, ⟨4, _⟩ => ⟨S64x2000x1, .f32⟩
  | .hbm, ⟨5, _⟩ => ⟨S64x2000, .f32⟩
  | .hbm, ⟨6, _⟩ => ⟨S64x200, .f32⟩
  | .local _ .vmem, ⟨0, _⟩ => ⟨S1x256x1024, .f32⟩
  | .local _ .vmem, ⟨1, _⟩ => ⟨S1x256x1024, .f32⟩
  | .local _ .vmem, ⟨2, _⟩ => ⟨S2000x1024, .f32⟩
  | .local _ .vmem, ⟨3, _⟩ => ⟨S1x2000x256, .f32⟩
  | .local _ .vmem, ⟨4, _⟩ => ⟨S1x2000x256, .f32⟩
  | .local _ .vmem, ⟨5, _⟩ => ⟨S1x2000x1, .f32⟩
  | .local _ .vmem, ⟨6, _⟩ => ⟨S1x2000x1, .f32⟩
  | .local _ .vmem, ⟨7, _⟩ => ⟨S64x2000, .f32⟩
  | .local _ .vmem, ⟨8, _⟩ => ⟨S200x2000, .f32⟩
  | .local _ .vmem, ⟨9, _⟩ => ⟨S64x200, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  reduces_S256x1024_S256 : S256x1024.Reduces [1] S256
  reduces_S2000x1024_S2000 : S2000x1024.Reduces [1] S2000
  shapeCasts_S256_S1x256 : S256.ShapeCasts S1x256
  broadcasts_S1x256_S2000x256 : S1x256.Broadcasts S2000x256
  shapeCasts_S2000_S2000x1 : S2000.ShapeCasts S2000x1
  broadcasts_S2000x1_S2000x256 : S2000x1.Broadcasts S2000x256
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  shapeCasts_S2000x256_S1x2000x256 : S2000x256.ShapeCasts S1x2000x256
  reduces_S2000x256_S2000 : S2000x256.Reduces [1] S2000
  inb_S1x2000x1_S1x2000x1_0_0_0 : ∀ a, (![0, 0, 0] : Fin 3 → Nat) a + S1x2000x1.size a ≤ S1x2000x1.size a
  h_S1x2000x1 : 0 < S1x2000x1.numel
  shapeCasts_S1x2000x1_S2000x1 : S1x2000x1.ShapeCasts S2000x1
  shapeCasts_S2000x1_S1x2000x1 : S2000x1.ShapeCasts S1x2000x1
  shapeCasts_S64x2000x1_S64x2000 : S64x2000x1.ShapeCasts S64x2000
  inb_S64x2000_S64x2000_0_0 : ∀ a, (![0, 0] : Fin 2 → Nat) a + S64x2000.size a ≤ S64x2000.size a
  h_S64x2000 : 0 < S64x2000.numel
  shapeCasts_S64x2000_S64x2000 : S64x2000.ShapeCasts S64x2000
  inb_S200x2000_S200x2000_0_0 : ∀ a, (![0, 0] : Fin 2 → Nat) a + S200x2000.size a ≤ S200x2000.size a
  h_S200x2000 : 0 < S200x2000.numel
  inb_S64x200_S64x200_0_0 : ∀ a, (![0, 0] : Fin 2 → Nat) a + S64x200.size a ≤ S64x200.size a
  h_S64x200 : 0 < S64x200.numel
  dot_S2000x1024_S256x1024_S2000x256_1_1_0_0_n_n_wf : DotDims.WF S2000x1024 S256x1024 S2000x256 [1] [1] [0] [0] [] []
  dot_S64x2000_S200x2000_S64x200_1_1_0_0_n_n_wf : DotDims.WF S64x2000 S200x2000 S64x200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S2000x1024.size a
  hwx0_1 : ∀ i : grid0.Coords, EltTy.bits .f32 = 32 ∨ (Rect.block (s := S2000x1024) S2000x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x256.size a ≤ S64x2000x256.size a
  hwx0_2 : ∀ i : grid0.Coords, EltTy.bits .f32 = 32 ∨ (Rect.block (s := S64x2000x256) S1x2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x1.size a ≤ S64x2000x1.size a
  hwx0_3 : ∀ i : grid0.Coords, EltTy.bits .f32 = 32 ∨ (Rect.block (s := S64x2000x1) S1x2000x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2000.size a ≤ S64x2000.size a
  hwx1_0 : ∀ i : grid1.Coords, EltTy.bits .f32 = 32 ∨ (Rect.block (s := S64x2000) S64x2000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x2000.size a ≤ S200x2000.size a
  hwx1_1 : ∀ i : grid1.Coords, EltTy.bits .f32 = 32 ∨ (Rect.block (s := S200x2000) S200x2000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x200.size a ≤ S64x200.size a
  hwx1_2 : ∀ i : grid1.Coords, EltTy.bits .f32 = 32 ∨ (Rect.block (s := S64x200) S64x200.size (cc1_transform_2 i) (hinb1_2 i)).WholeWords (EltTy.packing .f32)

variable [Facts₀]

def dot_S2000x1024_S256x1024_S2000x256_1_1_0_0_n_n : DotDims S2000x1024 S256x1024 S2000x256 where
  lhsContracting := [1]
  rhsContracting := [1]
  lhsNonContracting := [0]
  rhsNonContracting := [0]
  lhsBatch := []
  rhsBatch := []
  wf := dot_S2000x1024_S256x1024_S2000x256_1_1_0_0_n_n_wf
def dot_S64x2000_S200x2000_S64x200_1_1_0_0_n_n : DotDims S64x2000 S200x2000 S64x200 where
  lhsContracting := [1]
  rhsContracting := [1]
  lhsNonContracting := [0]
  rhsNonContracting := [0]
  lhsBatch := []
  rhsBatch := []
  wf := dot_S64x2000_S200x2000_S64x200_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S64x2000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x2000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x200.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x256x1024 : Shape := ⟨3, ![64, 256, 1024]⟩
abbrev S2000x1024 : Shape := ⟨2, ![2000, 1024]⟩
abbrev S200x2000 : Shape := ⟨2, ![200, 2000]⟩
abbrev S_ : Shape := ⟨0, ![]⟩
abbrev S64x256 : Shape := ⟨2, ![64, 256]⟩
abbrev S64x256x1 : Shape := ⟨3, ![64, 256, 1]⟩
abbrev S2000 : Shape := ⟨1, ![2000]⟩
abbrev S64x256x2000 : Shape := ⟨3, ![64, 256, 2000]⟩
abbrev S1x1x2000 : Shape := ⟨3, ![1, 1, 2000]⟩
abbrev S64x2000x256 : Shape := ⟨3, ![64, 2000, 256]⟩
abbrev S64x2000 : Shape := ⟨2, ![64, 2000]⟩
abbrev S2000x200 : Shape := ⟨2, ![2000, 200]⟩
abbrev S64x200 : Shape := ⟨2, ![64, 200]⟩

abbrev nBuf : Space → Nat
  | .hbm => 35
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S2000x1024, .f32⟩
  | .hbm, ⟨2, _⟩ => ⟨S200x2000, .f32⟩
  | .hbm, ⟨3, _⟩ => ⟨S64x256x1024, .f32⟩
  | .hbm, ⟨4, _⟩ => ⟨S_, .f32⟩
  | .hbm, ⟨5, _⟩ => ⟨S64x256, .f32⟩
  | .hbm, ⟨6, _⟩ => ⟨S64x256x1, .f32⟩
  | .hbm, ⟨7, _⟩ => ⟨S2000x1024, .f32⟩
  | .hbm, ⟨8, _⟩ => ⟨S_, .f32⟩
  | .hbm, ⟨9, _⟩ => ⟨S2000, .f32⟩
  | .hbm, ⟨10, _⟩ => ⟨S64x256x2000, .f32⟩
  | .hbm, ⟨11, _⟩ => ⟨S_, .f32⟩
  | .hbm, ⟨12, _⟩ => ⟨S64x256x2000, .f32⟩
  | .hbm, ⟨13, _⟩ => ⟨S64x256x2000, .f32⟩
  | .hbm, ⟨14, _⟩ => ⟨S64x256x2000, .f32⟩
  | .hbm, ⟨15, _⟩ => ⟨S64x256x2000, .f32⟩
  | .hbm, ⟨16, _⟩ => ⟨S1x1x2000, .f32⟩
  | .hbm, ⟨17, _⟩ => ⟨S64x256x2000, .f32⟩
  | .hbm, ⟨18, _⟩ => ⟨S64x256x2000, .f32⟩
  | .hbm, ⟨19, _⟩ => ⟨S_, .f32⟩
  | .hbm, ⟨20, _⟩ => ⟨S64x256x2000, .f32⟩
  | .hbm, ⟨21, _⟩ => ⟨S64x256x2000, .f32⟩
  | .hbm, ⟨22, _⟩ => ⟨S64x2000x256, .f32⟩
  | .hbm, ⟨23, _⟩ => ⟨S_, .f32⟩
  | .hbm, ⟨24, _⟩ => ⟨S64x2000, .f32⟩
  | .hbm, ⟨25, _⟩ => ⟨S_, .f32⟩
  | .hbm, ⟨26, _⟩ => ⟨S64x2000, .f32⟩
  | .hbm, ⟨27, _⟩ => ⟨S64x2000, .f32⟩
  | .hbm, ⟨28, _⟩ => ⟨S_, .f32⟩
  | .hbm, ⟨29, _⟩ => ⟨S64x2000, .f32⟩
  | .hbm, ⟨30, _⟩ => ⟨S64x2000, .f32⟩
  | .hbm, ⟨31, _⟩ => ⟨S64x2000, .f32⟩
  | .hbm, ⟨32, _⟩ => ⟨S64x2000, .f32⟩
  | .hbm, ⟨33, _⟩ => ⟨S2000x200, .f32⟩
  | .hbm, ⟨34, _⟩ => ⟨S64x200, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  reducesTo_S64x256x1024_S64x256_d2 : S64x256x1024.ReducesTo [2] S64x256
  h_S_ : 0 < S_.numel
  bcast_S64x256_S64x256x1_0_1 : S64x256.BroadcastsInDim S64x256x1 (![0, 1] : Fin 2 → Fin S64x256x1.rank)
  reducesTo_S2000x1024_S2000_d1 : S2000x1024.ReducesTo [1] S2000
  bcast_S_S64x256x2000 : S_.BroadcastsInDim S64x256x2000 (![] : Fin 0 → Fin S64x256x2000.rank)
  bcast_S64x256x1_S64x256x2000_0_1_2 : S64x256x1.BroadcastsInDim S64x256x2000 (![0, 1, 2] : Fin 3 → Fin S64x256x2000.rank)
  bcast_S2000_S1x1x2000_2 : S2000.BroadcastsInDim S1x1x2000 (![2] : Fin 1 → Fin S1x1x2000.rank)
  bcast_S1x1x2000_S64x256x2000_0_1_2 : S1x1x2000.BroadcastsInDim S64x256x2000 (![0, 1, 2] : Fin 3 → Fin S64x256x2000.rank)
  transposes_S64x256x2000_S64x2000x256_0_2_1 : S64x256x2000.Transposes [0, 2, 1] S64x2000x256
  reducesTo_S64x2000x256_S64x2000_d2 : S64x2000x256.ReducesTo [2] S64x2000
  bcast_S_S64x2000 : S_.BroadcastsInDim S64x2000 (![] : Fin 0 → Fin S64x2000.rank)
  transposes_S200x2000_S2000x200_1_0 : S200x2000.Transposes [1, 0] S2000x200
  dot_S64x256x1024_S2000x1024_S64x256x2000_2_1_01_0_n_n_wf : DotDims.WF S64x256x1024 S2000x1024 S64x256x2000 [2] [1] [0, 1] [0] [] []
  dot_S64x2000_S2000x200_S64x200_1_0_0_1_n_n_wf : DotDims.WF S64x2000 S2000x200 S64x200 [1] [0] [0] [1] [] []

variable [Facts₀]

def dot_S64x256x1024_S2000x1024_S64x256x2000_2_1_01_0_n_n : DotDims S64x256x1024 S2000x1024 S64x256x2000 where
  lhsContracting := [2]
  rhsContracting := [1]
  lhsNonContracting := [0, 1]
  rhsNonContracting := [0]
  lhsBatch := []
  rhsBatch := []
  wf := dot_S64x256x1024_S2000x1024_S64x256x2000_2_1_01_0_n_n_wf
def dot_S64x2000_S2000x200_S64x200_1_0_0_1_n_n : DotDims S64x2000 S2000x200 S64x200 where
  lhsContracting := [1]
  rhsContracting := [0]
  lhsNonContracting := [0]
  rhsNonContracting := [1]
  lhsBatch := []
  rhsBatch := []
  wf := dot_S64x2000_S2000x200_S64x200_1_0_0_1_n_n_wf

class Facts : Prop extends Facts₀ where

variable [Facts]
-- ==== Proof.KernelRun.lean ====
/-
  The idealized kernel's run with its results kept.

  The program is two kernel regions with one host reshape between them.  Every weakly fair execution of it ends
  with every unscoped buffer of the TensorCore at the contents of the last segment boundary; the frame claim keeps
  only the three argument arrays of that fact.  Here the same launch is read at the three RESULT buffers as well:
  the logits, the distance maps and the per-prototype minima each end at the last boundary's contents, which the
  lemmas below walk back through the boundaries:
    * the logits are the second region's output array, what its one grid point wrote back;
    * the distance maps are the first region's first output array, untouched by the reshape and by the second
      region;
    * the minima are the reshape of the first region's second output array (the second region only reads them).
-/
import proofs.«102690_j82892868812969_2_alg».proof.Proof.Gen.KernelIdeal.Frame
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each of the three results at the
    contents of the last segment boundary and the three arguments as launched. -/
theorem run_boundary : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_v0_0) = W3 m ρ c (Proc.devRef .tc main_v0_0)
      ∧ r.2.mem ((c.tc : Thread nD τ).loc main_v1) = W3 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       h c _ (mem_uc main_v0_0 (by decide)),
       h c _ (mem_uc main_v1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-! ## The last boundary's contents at each result, walked back to the regions' output arrays -/

/-- The logits' buffer is the second region's output array: it ends at what that region's write-backs leave. -/
theorem boundary_logits (c : Dev nD) :
    W3 m ρ c (Proc.devRef .tc main_v2) = (dat1 (V2 m ρ) c).arrAt 2 cfg1.N :=
  W3_arr m ρ c 2

/-- The distance maps' buffer is no array of the second region and the reshape does not write it: it ends at what
    the first region's write-backs leave in its first output array. -/
theorem boundary_attn (c : Dev nD) :
    W3 m ρ c (Proc.devRef .tc main_v0_0) = (dat0 (V0 m ρ) c).arrAt 2 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := by
          show StableHlo.after hostOps1 (W1 m ρ c) (Proc.devRef .tc main_v0_0) = _
          after_results
    _ = (dat0 (V0 m ρ) c).arrAt 2 cfg0.N := W1_arr m ρ c 2

/-- What the second region finds in its first input array: the reshape of the first region's second output array. -/
theorem entry_mind (c : Dev nD) :
    V2 m ρ c main_v1 = shapeCast S64x2000 ((dat0 (V0 m ρ) c).arrAt 3 cfg0.N) shapeCasts_S64x2000x1_S64x2000 := by
  show StableHlo.after hostOps1 (W1 m ρ c) (Proc.devRef .tc main_v1) = _
  after_results
  rw [W1_arr m ρ c 3]
  rfl

/-- The minima's buffer is the second region's first INPUT array, which that region leaves as it found it. -/
theorem boundary_mind (c : Dev nD) :
    W3 m ρ c (Proc.devRef .tc main_v1) = shapeCast S64x2000 ((dat0 (V0 m ρ) c).arrAt 3 cfg0.N) shapeCasts_S64x2000x1_S64x2000 :=
  ((W3_arr m ρ c 0).trans (((dat1 (V2 m ρ) c).arrAt_in 0 rfl _).trans (A_eq1 (V2 m ρ) c 0))).trans (entry_mind m ρ c)

/-- What the second region finds in its second input array: the class weights as launched. -/
theorem entry_head (c : Dev nD) : V2 m ρ c main_arg2 = m ((c.tc : Thread nD τ).loc main_arg2) :=
  ((W3_arr m ρ c 1).trans (((dat1 (V2 m ρ) c).arrAt_in 1 rfl _).trans (A_eq1 (V2 m ρ) c 1))).symm.trans (W3_main_arg2 m ρ c)

end Cert.KernelIdeal.RunValue

end
-- ==== Proof.LibColumn.lean ====
/-
  Keepdims columns read at an index given by coordinates.

  A reduction over the last axis that keeps a unit axis in its place leaves a COLUMN, an array of shape [a, 1]; a
  program then meets four layout operations around it that the value library does not read at coordinates:
    * a vector [a] cast to the column [a, 1]: the column at (i, u) is the vector at i, whatever the unit coordinate u;
    * the column [a, 1] broadcast across b lanes to [a, b]: the result at (i, j) is the column at (i, 0);
    * a trailing unit axis dropped by a cast, [a, b, 1] to [a, b]: the result at (i, j) is the operand at (i, j, 0);
    * a leading unit axis added to a column by a cast, [a, 1] to [1, a, 1]: the result at (u, i, v) is the column at (i, v).
  Each is the general read-at-an-index lemma of its operation with the coordinates' arithmetic done: one row-major
  equation for a cast, one equation per operand axis for a broadcast.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast across `b` lanes to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array cast to `[a, b]` (a trailing unit axis dropped) reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A column `[a, 1]` cast to `[1, a, 1]` (a leading unit axis added) reads, at `(u, i, v)`, the column at `(i, v)`,
    whatever the unit coordinate `u`: the `[a, b]` to `[1, a, b]` reading at `b = 1`, stated at the column's own
    shape so that it applies by unification. -/
theorem shapeCast_a1_1a1_apply {a : ℕ} (x : (⟨2, ![a, 1]⟩ : Shape).Idx → α)
    (h : (⟨2, ![a, 1]⟩ : Shape).ShapeCasts ⟨3, ![1, a, 1]⟩) (u : Fin 1) (i : Fin a) (v : Fin 1) :
    shapeCast ⟨3, ![1, a, 1]⟩ x h (ix3 u i v) = x (ix2 i v) :=
  shapeCast_apply x h _ _ (by
    have hu : u.val = 0 := by omega
    rw [Shape.rowMajor_val_three, Shape.rowMajor_val_two]
    show i.val * 1 + v.val = (u.val * a + i.val) * 1 + v.val
    rw [hu, Nat.zero_mul, Nat.zero_add])

end Idealize.ShloMosaic.ValueIdx
-- ==== Proof.DistPayload.lean ====
/-
  The first kernel's arithmetic at an index.

  At a grid point the body holds one image's patches x0 [1, 256, 1024] and all prototypes x1 [2000, 1024], and
  computes the tile of clipped squared distances [2000, 256]: at (p, n)
      max ((|x0 n|² - 2 · ⟨x1 p, x0 n⟩) + |x1 p|²) 0,
  the patch norms as a lane sum laid out as one row broadcast down the 2000 prototypes, the prototype norms as a lane
  sum laid out as a column broadcast across the 256 patches, the inner products as a matrix product into a zero
  accumulator (the change of float format of its operands is the identity on the extended reals). The tile is stored
  under a leading unit axis; its minimum along the patches, from +∞, is stored as a column under a leading unit axis.
-/
import proofs.«102690_j82892868812969_2_alg».proof.Proof.Gen.KernelIdeal.Skeleton
import proofs.«102690_j82892868812969_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistValue

open Idealize.ShloMosaic Idealize.ShloMosaic.ValueIdx Cert.KernelIdeal Cert.KernelIdeal.Gen

/-- The patch norms: the lane sum of a [256, 1024] array, cast to one row and broadcast down 2000 rows, read at
    (p, n), is the sum over the 1024 lanes of row n. -/
theorem rowSum_apply (v : FVec Ideal S256x1024 .f32) (p : Fin 2000) (n : Fin 256) :
    broadcastTo S2000x256 (shapeCast S1x256 (multiReduction .add [1] S256 v 0x00000000#32 reduces_S256x1024_S256 (.inl rfl) rfl)
        shapeCasts_S256_S1x256) broadcasts_S1x256_S2000x256 (ix2 p n)
      = ∑ d : Fin 1024, v (ix2 n d) := by
  rw [broadcastTo_1b_ab_apply, shapeCast_a_1a_apply]
  refine (Ideal.multiReduction_add_single v _ reduces_S256x1024_S256 _ _ (ix1 n)).trans ?_
  exact Finset.sum_congr rfl fun k _ => congrArg v (funext fun ax => Fin.ext (by
    match ax with
    | ⟨0, _⟩ => rfl
    | ⟨1, _⟩ => rfl))

/-- The prototype norms: the lane sum of a [2000, 1024] array, cast to a column and broadcast across 256 lanes, read
    at (p, n), is the sum over the 1024 lanes of row p. -/
theorem colSum_apply (v : FVec Ideal S2000x1024 .f32) (p : Fin 2000) (n : Fin 256) :
    broadcastTo S2000x256 (shapeCast S2000x1 (multiReduction .add [1] S2000 v 0x00000000#32 reduces_S2000x1024_S2000 (.inl rfl) rfl)
        shapeCasts_S2000_S2000x1) broadcasts_S2000x1_S2000x256 (ix2 p n)
      = ∑ d : Fin 1024, v (ix2 p d) := by
  rw [broadcastTo_a1_ab_apply, shapeCast_a_a1_apply]
  refine (Ideal.multiReduction_add_single v _ reduces_S2000x1024_S2000 _ _ (ix1 p)).trans ?_
  exact Finset.sum_congr rfl fun k _ => congrArg v (funext fun ax => Fin.ext (by
    match ax with
    | ⟨0, _⟩ => rfl
    | ⟨1, _⟩ => rfl))

/-- The operand indices of the product of a [2000, 1024] by a [256, 1024] array over their second axes, at the output
    index (p, n) and the contraction index q: row p of the left operand, row n of the right. -/
theorem lhs_row (i : S2000x256.Idx) (q : dot_S2000x1024_S256x1024_S2000x256_1_1_0_0_n_n.contr.Idx) :
    (dot_S2000x1024_S256x1024_S2000x256_1_1_0_0_n_n.lhsIdx i q 0).val = (i 0).val := by
  unfold DotDims.lhsIdx
  rw [dif_neg (show ¬(0 : Fin S2000x1024.rank) ∈ dot_S2000x1024_S256x1024_S2000x256_1_1_0_0_n_n.lhsBatch by decide),
    dif_pos (show (0 : Fin S2000x1024.rank) ∈ dot_S2000x1024_S256x1024_S2000x256_1_1_0_0_n_n.lhsNonContracting by decide)]
  rfl
theorem rhs_row (i : S2000x256.Idx) (q : dot_S2000x1024_S256x1024_S2000x256_1_1_0_0_n_n.contr.Idx) :
    (dot_S2000x1024_S256x1024_S2000x256_1_1_0_0_n_n.rhsIdx i q 0).val = (i 1).val := by
  unfold DotDims.rhsIdx
  rw [dif_neg (show ¬(0 : Fin S256x1024.rank) ∈ dot_S2000x1024_S256x1024_S2000x256_1_1_0_0_n_n.rhsBatch by decide),
    dif_pos (show (0 : Fin S256x1024.rank) ∈ dot_S2000x1024_S256x1024_S2000x256_1_1_0_0_n_n.rhsNonContracting by decide)]
  rfl

/-- The inner products: the matrix product into a zero accumulator, read at (p, n), is the sum over the 1024 features
    of row p of the left operand times row n of the right. -/
theorem crossTile_apply (l : FVec Ideal S2000x1024 .bf16) (r : FVec Ideal S256x1024 .bf16) (p : Fin 2000) (n : Fin 256) :
    matmul dot_S2000x1024_S256x1024_S2000x256_1_1_0_0_n_n none l r (constant (F := Ideal) S2000x256 .f32 0x00000000#32) (ix2 p n)
      = ∑ d : Fin 1024, l (ix2 p d) * r (ix2 n d) := by
  simp only [matmul]
  rw [Ideal.matmul_constant_zero_apply,
    ← Equiv.sum_comp (ValueIdx.contrEquiv1 dot_S2000x1024_S256x1024_S2000x256_1_1_0_0_n_n 1024 rfl rfl).symm]
  refine Finset.sum_congr rfl fun k _ => ?_
  have hk := ValueIdx.contrEquiv1_symm_val dot_S2000x1024_S256x1024_S2000x256_1_1_0_0_n_n 1024 rfl rfl k
  have el : dot_S2000x1024_S256x1024_S2000x256_1_1_0_0_n_n.lhsIdx (ix2 p n)
      ((ValueIdx.contrEquiv1 dot_S2000x1024_S256x1024_S2000x256_1_1_0_0_n_n 1024 rfl rfl).symm k) = ix2 p k :=
    funext fun a => Fin.ext (by
      match a with
      | ⟨0, _⟩ => exact lhs_row _ _
      | ⟨1, _⟩ => exact (dot_S2000x1024_S256x1024_S2000x256_1_1_0_0_n_n.lhsIdx_val_of_single rfl _ _).trans hk)
  have er : dot_S2000x1024_S256x1024_S2000x256_1_1_0_0_n_n.rhsIdx (ix2 p n)
      ((ValueIdx.contrEquiv1 dot_S2000x1024_S256x1024_S2000x256_1_1_0_0_n_n 1024 rfl rfl).symm k) = ix2 n k :=
    funext fun a => Fin.ext (by
      match a with
      | ⟨0, _⟩ => exact rhs_row _ _
      | ⟨1, _⟩ => exact (dot_S2000x1024_S256x1024_S2000x256_1_1_0_0_n_n.rhsIdx_val_of_single rfl _ _).trans hk)
  rw [el, er]

/-- The tile of clipped squared distances at (p, n), from the body's two loaded blocks. -/
theorem tile_apply (x0 : FVec Ideal S1x256x1024 .f32) (x1 : FVec Ideal S2000x1024 .f32) (p : Fin 2000) (n : Fin 256) :
    k0_pay1 (F := Ideal) x0 x1 (ix2 p n)
      = max ((∑ d : Fin 1024, x0 (ix3 (0 : Fin 1) n d) * x0 (ix3 (0 : Fin 1) n d)
              - Ideal.ofBits .f32 0x40000000#32 * ∑ d : Fin 1024, x1 (ix2 p d) * x0 (ix3 (0 : Fin 1) n d))
            + ∑ d : Fin 1024, x1 (ix2 p d) * x1 (ix2 p d)) (Ideal.ofBits .f32 0x00000000#32) := by
  unfold k0_pay1
  simp only [maximumf_apply, addf_apply, subf_apply, mulf_apply, broadcast_apply]
  rw [rowSum_apply, colSum_apply, crossTile_apply]
  simp only [mulf_apply, truncf_apply, shapeCast_1ab_ab_apply]
  rfl

/-- The stored tile: under the leading unit axis, the tile itself. -/
theorem storedTile_apply (x0 : FVec Ideal S1x256x1024 .f32) (x1 : FVec Ideal S2000x1024 .f32) (u : Fin 1) (p : Fin 2000) (n : Fin 256) :
    k0_pay2 (F := Ideal) x0 x1 (ix3 u p n) = k0_pay1 (F := Ideal) x0 x1 (ix2 p n) := by
  unfold k0_pay2
  exact shapeCast_ab_1ab_apply _ _ u p n

/-- The stored minima: at (·, p, ·) the fold of min, from +∞, of row p of the tile over its 256 lanes. -/
theorem storedMin_apply (x0 : FVec Ideal S1x256x1024 .f32) (x1 : FVec Ideal S2000x1024 .f32) (u : Fin 1) (p : Fin 2000) (v : Fin 1) :
    k0_pay3 (F := Ideal) x0 x1 (ix3 u p v)
      = (Finset.univ : Finset (Fin 256)).fold (FloatOps.minimumf (F := Ideal) (φ := .f32)) (FloatOps.ofBits .f32 0x7F800000#32)
          (fun n => k0_pay1 (F := Ideal) x0 x1 (ix2 p n)) := by
  unfold k0_pay3
  rw [shapeCast_a1_1a1_apply, shapeCast_a_a1_apply]
  refine (multiReduction_minimumf_eq_fold (k0_pay1 (F := Ideal) x0 x1) _ reduces_S2000x256_S2000 _ _ (ix1 p)).trans ?_
  refine (reduces_S2000x256_S2000.fold_filter_drop_single _ _ (k0_pay1 (F := Ideal) x0 x1) (ix1 p)).trans ?_
  exact congrArg (fun f => Finset.fold _ _ f Finset.univ) (funext fun k => congrArg (k0_pay1 (F := Ideal) x0 x1) (funext fun ax => Fin.ext (by
    match ax with
    | ⟨0, _⟩ => rfl
    | ⟨1, _⟩ => rfl)))

end Cert.KernelIdeal.DistValue

end
-- ==== Proof.Spec.lean ====
/-
  What the program computes, as functions of its three argument arrays over the extended reals.

  With x the patch features [64, 256, 1024], w the prototypes [2000, 1024] and h the class weights [200, 2000]:
    * the squared distance of patch n of image b to prototype p, clipped below at zero,
        dist b p n = max ((|x b n|² - 2 · ⟨w p, x b n⟩) + |w p|²) 0,
      where |·|² and ⟨·,·⟩ are sums over the 1024 features;
    * the distance maps hold dist b p n at (b, p, n);
    * the minimum over the 256 patches of an image, taken from +∞: minDist b p;
    * each minimum d is turned into the similarity log ((d + 1) / (d + ε)), ε the single-precision word nearest 10⁻⁴
      (the same word in both programs, never evaluated), and the logits are the similarities' products with the
      class weights summed over the 2000 prototypes.
  The float words 2, 0, 1, ε and +∞ stay as their binary patterns.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The patch features, one row of 1024 per patch, 256 patches per image, 64 images. -/
abbrev Patches : Type := (⟨3, ![64, 256, 1024]⟩ : Shape).Idx → Ideal .f32
/-- The prototypes, one row of 1024 features each. -/
abbrev Protos : Type := (⟨2, ![2000, 1024]⟩ : Shape).Idx → Ideal .f32
/-- The class weights, one row of 2000 per class. -/
abbrev Head : Type := (⟨2, ![200, 2000]⟩ : Shape).Idx → Ideal .f32
/-- A value per image and prototype. -/
abbrev PerProto : Type := (⟨2, ![64, 2000]⟩ : Shape).Idx → Ideal .f32

/-- The squared norm of patch n of image b. -/
def sqPatch (x : Patches) (b : Fin 64) (n : Fin 256) : Ideal .f32 :=
  ∑ d : Fin 1024, x (ix3 b n d) * x (ix3 b n d)

/-- The squared norm of prototype p. -/
def sqProto (w : Protos) (p : Fin 2000) : Ideal .f32 :=
  ∑ d : Fin 1024, w (ix2 p d) * w (ix2 p d)

/-- The inner product of prototype p with patch n of image b. -/
def cross (x : Patches) (w : Protos) (b : Fin 64) (n : Fin 256) (p : Fin 2000) : Ideal .f32 :=
  ∑ d : Fin 1024, w (ix2 p d) * x (ix3 b n d)

/-- The clipped squared distance of patch n of image b to prototype p. -/
def dist (x : Patches) (w : Protos) (b : Fin 64) (p : Fin 2000) (n : Fin 256) : Ideal .f32 :=
  max ((sqPatch x b n - Ideal.ofBits .f32 0x40000000#32 * cross x w b n p) + sqProto w p) (Ideal.ofBits .f32 0x00000000#32)

/-- The distance maps, [64, 2000, 256]. -/
def attn (x : Patches) (w : Protos) : (⟨3, ![64, 2000, 256]⟩ : Shape).Idx → Ideal .f32 :=
  fun i => dist x w (i 0) (i 1) (i 2)

/-- The least clipped distance of an image's patches to prototype p, from +∞. -/
def minDist (x : Patches) (w : Protos) (b : Fin 64) (p : Fin 2000) : Ideal .f32 :=
  (Finset.univ : Finset (Fin 256)).fold (FloatOps.minimumf (F := Ideal) (φ := .f32)) (FloatOps.ofBits .f32 0x7F800000#32)
    (fun n => dist x w b p n)

/-- The minima, [64, 2000]. -/
def mind (x : Patches) (w : Protos) : PerProto := fun i => minDist x w (i 0) (i 1)

/-- The minima with the reduced axis kept as a unit axis, [64, 2000, 1]. -/
def mindCol (x : Patches) (w : Protos) : (⟨3, ![64, 2000, 1]⟩ : Shape).Idx → Ideal .f32 := fun i => minDist x w (i 0) (i 1)

/-- The similarity of a distance: log ((d + 1) / (d + ε)). -/
def act (d : Ideal .f32) : Ideal .f32 :=
  Ideal.log (Ideal.div (d + Ideal.ofBits .f32 0x3F800000#32) (d + Ideal.ofBits .f32 0x38D1B717#32))

/-- The logits, [64, 200]: the similarities against each class's weights, summed over the prototypes. -/
def logits (md : PerProto) (h : Head) : (⟨2, ![64, 200]⟩ : Shape).Idx → Ideal .f32 :=
  fun i => ∑ p : Fin 2000, act (md (ix2 (i 0) p)) * h (ix2 (i 1) p)

/-- The inner product does not depend on the order of its factors. -/
theorem cross_comm (x : Patches) (w : Protos) (b : Fin 64) (n : Fin 256) (p : Fin 2000) :
    ∑ d : Fin 1024, x (ix3 b n d) * w (ix2 p d) = cross x w b n p :=
  Finset.sum_congr rfl fun d _ => mul_comm _ _

end Cert.Spec

end
-- ==== Proof.Region0Value.lean ====
/-
  The first region's two output arrays as functions of the arrays it finds.

  The region has 64 grid points, one per image. At point t it reads image t's patches (block (t, 0, 0) of the patch
  array, 1 × 256 × 1024) and every prototype (the whole array at every point), and writes back block (t, 0, 0) of the
  distance maps (1 × 2000 × 256) and block (t, 0, 0) of the minima kept as a column (1 × 2000 × 1). A block's coordinate
  on an axis is the block index times the block's size plus the coordinate inside the block, so what point t writes is
  the restriction to image t of one function of the whole arrays; the 64 blocks cover each output array, image by image.
-/
import proofs.«102690_j82892868812969_2_alg».proof.Proof.Gen.KernelIdeal.Frame
import proofs.«102690_j82892868812969_2_alg».proof.Proof.DistPayload
import proofs.«102690_j82892868812969_2_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The image a grid point works on. -/
def img (t : Fin cfg0.N) : Fin 64 := ⟨t.val, lt_of_lt_of_eq t.isLt N_0⟩

/-- The printed index maps over the grid: the patches', the distance maps' and the minima's block index is (t, 0, 0),
    the prototypes' (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The patches' block at point t is image t's patches. -/
theorem patches_blk (c : Dev nD) (t : Fin cfg0.N) (u : Fin 1) (n : Fin 256) (d : Fin 1024) :
    (iblk0 V c 0 t : FVec Ideal S1x256x1024 .f32) (ix3 u n d) = (V c main_arg0 : Cert.Spec.Patches) (ix3 (img t) n d) := by
  obtain ⟨e0, e1, e2, -⟩ := idx_facts t
  unfold iblk0
  rw [View.read_apply]
  show V c main_arg0 _ = V c main_arg0 _
  congr 1
  funext a
  apply Fin.ext
  match a with
  | ⟨0, _⟩ => show win0_0.index t (0 : Fin 3) * 1 + 1 * u.val = t.val; have := u.isLt; omega
  | ⟨1, _⟩ => show win0_0.index t (1 : Fin 3) * 256 + 1 * n.val = n.val; omega
  | ⟨2, _⟩ => show win0_0.index t (2 : Fin 3) * 1024 + 1 * d.val = d.val; omega

/-- The prototypes' block at every point is the whole array. -/
theorem protos_blk (c : Dev nD) (t : Fin cfg0.N) (p : Fin 2000) (d : Fin 1024) :
    (iblk0 V c 1 t : FVec Ideal S2000x1024 .f32) (ix2 p d) = (V c main_arg1 : Cert.Spec.Protos) (ix2 p d) := by
  obtain ⟨-, -, -, e3, e4, -⟩ := idx_facts t
  unfold iblk0
  rw [View.read_apply]
  show V c main_arg1 _ = V c main_arg1 _
  congr 1
  funext a
  apply Fin.ext
  match a with
  | ⟨0, _⟩ => show win0_1.index t (0 : Fin 2) * 2000 + 1 * p.val = p.val; omega
  | ⟨1, _⟩ => show win0_1.index t (1 : Fin 2) * 1024 + 1 * d.val = d.val; omega

/-- The tile of point t at (p, n) is the clipped squared distance of patch n of image t to prototype p. -/
theorem tile_at (c : Dev nD) (t : Fin cfg0.N) (p : Fin 2000) (n : Fin 256) :
    k0_pay1 (F := Ideal) (iblk0 V c 0 t) (iblk0 V c 1 t) (ix2 p n)
      = Cert.Spec.dist (V c main_arg0) (V c main_arg1) (img t) p n := by
  refine (DistValue.tile_apply (iblk0 V c 0 t) (iblk0 V c 1 t) p n).trans ?_
  have hx : ∀ d : Fin 1024, (iblk0 V c 0 t : FVec Ideal S1x256x1024 .f32) (ix3 (0 : Fin 1) n d)
      = (V c main_arg0 : Cert.Spec.Patches) (ix3 (img t) n d) := fun d => patches_blk V c t 0 n d
  have hw : ∀ d : Fin 1024, (iblk0 V c 1 t : FVec Ideal S2000x1024 .f32) (ix2 p d)
      = (V c main_arg1 : Cert.Spec.Protos) (ix2 p d) := fun d => protos_blk V c t p d
  simp only [hx, hw]
  rfl

/-! ## The distance maps -/

/-- Where point t's block of the distance maps lies: image t. -/
theorem emb_attn (t : Fin cfg0.N) (u : Fin 1) (p : Fin 2000) (n : Fin 256) :
    ((cfg0.win 2).blk t).view.emb (ix3 u p n) = (ix3 (img t) p n : S64x2000x256.Idx) := by
  obtain ⟨-, -, -, -, -, e5, e6, e7, -⟩ := idx_facts t
  funext a
  apply Fin.ext
  match a with
  | ⟨0, _⟩ => show win0_2.index t (0 : Fin 3) * 1 + 1 * u.val = t.val; have := u.isLt; omega
  | ⟨1, _⟩ => show win0_2.index t (1 : Fin 3) * 2000 + 1 * p.val = p.val; omega
  | ⟨2, _⟩ => show win0_2.index t (2 : Fin 3) * 256 + 1 * n.val = n.val; omega

/-- What point t writes back to the distance maps is block t of the distance maps of the arrays the region finds. -/
theorem flushed_attn (c : Dev nD) (t : Fin cfg0.N) :
    (dat0 V c).flushed 2 t
      = ((cfg0.win 2).blk t).view.read (Elt Ideal) (Cert.Spec.attn (V c main_arg0) (V c main_arg1)) := by
  show (cfg0.win 2).cut (grid0.coords t) ((dat0 V c).after 2 t) = _
  rw [after0_2]
  unfold out0_2
  rw [View.canon_unit_zero hz3]
  simp only [View.ld_unit_zero (S := S1x256x1024) hz3, View.ld_unit_zero (S := S2000x1024) hz2]
  funext j
  obtain ⟨u, p, n, rfl⟩ : ∃ (u : Fin 1) (p : Fin 2000) (n : Fin 256), j = ix3 u p n := ⟨j 0, j 1, j 2, eq_ix3 j⟩
  rw [View.read_apply, emb_attn t u p n]
  exact (DistValue.storedTile_apply (iblk0 V c 0 t) (iblk0 V c 1 t) u p n).trans (tile_at V c t p n)

/-- An index of the distance maps is in point t's block iff each coordinate is in the block's range on its axis. -/
theorem mem_blk_attn (t : Fin cfg0.N) (i : S64x2000x256.Idx) :
    i ∈ ((cfg0.win 2).blk t).view.set ↔ ∀ a : Fin 3, win0_2.index t a * S1x2000x256.size a ≤ (i a).val
      ∧ (i a).val < win0_2.index t a * S1x2000x256.size a + S1x2000x256.size a := by
  show i ∈ ((View.whole main_v0_0).slice (win0_2.rect t)).set ↔ _
  rw [View.set_slice_whole, Rect.mem_set_unit]
  exact Iff.rfl

/-- Every index of the distance maps is in the block of its image's point. -/
theorem cover_attn (i : S64x2000x256.Idx) :
    ∃ t : Fin cfg0.N, (cfg0.win 2).flush t = true ∧ i ∈ ((cfg0.win 2).blk t).view.set := by
  have h0 : (i 0).val < 64 := (i 0).isLt
  have h1 : (i 1).val < 2000 := (i 1).isLt
  have h2 : (i 2).val < 256 := (i 2).isLt
  let t : Fin cfg0.N := ⟨(i 0).val, lt_of_lt_of_eq h0 N_0.symm⟩
  obtain ⟨-, -, -, -, -, e5, e6, e7, -⟩ := idx_facts t
  refine ⟨t, flush0_2 t, ?_⟩
  rw [mem_blk_attn]
  intro a
  match a with
  | ⟨0, _⟩ => show win0_2.index t (0 : Fin 3) * 1 ≤ (i 0).val ∧ (i 0).val < win0_2.index t (0 : Fin 3) * 1 + 1; rw [e5]; show (i 0).val * 1 ≤ (i 0).val ∧ (i 0).val < (i 0).val * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 256 ≤ (i 2).val ∧ (i 2).val < win0_2.index t (2 : Fin 3) * 256 + 256; omega

/-- THE DISTANCE MAPS after the region: the clipped squared distances of the arrays the region finds. -/
theorem attn_array (c : Dev nD) :
    (dat0 V c).arrAt 2 cfg0.N = Cert.Spec.attn (V c main_arg0) (V c main_arg1) :=
  (dat0 V c).arrAt_eq_of_cover 2 (Cert.Spec.attn (V c main_arg0) (V c main_arg1)) (fun t _ => flushed_attn V c t) cover_attn

/-! ## The minima, kept as a column -/

/-- Where point t's block of the minima lies: image t. -/
theorem emb_mind (t : Fin cfg0.N) (u : Fin 1) (p : Fin 2000) (v : Fin 1) :
    ((cfg0.win 3).blk t).view.emb (ix3 u p v) = (ix3 (img t) p v : S64x2000x1.Idx) := by
  obtain ⟨-, -, -, -, -, -, -, -, e8, e9, e10⟩ := idx_facts t
  funext a
  apply Fin.ext
  match a with
  | ⟨0, _⟩ => show win0_3.index t (0 : Fin 3) * 1 + 1 * u.val = t.val; have := u.isLt; omega
  | ⟨1, _⟩ => show win0_3.index t (1 : Fin 3) * 2000 + 1 * p.val = p.val; omega
  | ⟨2, _⟩ => show win0_3.index t (2 : Fin 3) * 1 + 1 * v.val = v.val; omega

/-- What point t writes back to the minima is block t of the minima of the arrays the region finds. -/
theorem flushed_mind (c : Dev nD) (t : Fin cfg0.N) :
    (dat0 V c).flushed 3 t
      = ((cfg0.win 3).blk t).view.read (Elt Ideal) (Cert.Spec.mindCol (V c main_arg0) (V c main_arg1)) := by
  show (cfg0.win 3).cut (grid0.coords t) ((dat0 V c).after 3 t) = _
  rw [after0_3]
  unfold out0_3
  rw [View.canon_unit_zero hz3]
  simp only [View.ld_unit_zero (S := S1x256x1024) hz3, View.ld_unit_zero (S := S2000x1024) hz2]
  funext j
  obtain ⟨u, p, v, rfl⟩ : ∃ (u : Fin 1) (p : Fin 2000) (v : Fin 1), j = ix3 u p v := ⟨j 0, j 1, j 2, eq_ix3 j⟩
  rw [View.read_apply, emb_mind t u p v]
  refine (DistValue.storedMin_apply (iblk0 V c 0 t) (iblk0 V c 1 t) u p v).trans ?_
  exact congrArg (fun f => Finset.fold _ _ f Finset.univ) (funext fun n => tile_at V c t p n)

/-- An index of the minima is in point t's block iff each coordinate is in the block's range on its axis. -/
theorem mem_blk_mind (t : Fin cfg0.N) (i : S64x2000x1.Idx) :
    i ∈ ((cfg0.win 3).blk t).view.set ↔ ∀ a : Fin 3, win0_3.index t a * S1x2000x1.size a ≤ (i a).val
      ∧ (i a).val < win0_3.index t a * S1x2000x1.size a + S1x2000x1.size a := by
  show i ∈ ((View.whole main_v0_1).slice (win0_3.rect t)).set ↔ _
  rw [View.set_slice_whole, Rect.mem_set_unit]
  exact Iff.rfl

/-- Every index of the minima is in the block of its image's point. -/
theorem cover_mind (i : S64x2000x1.Idx) :
    ∃ t : Fin cfg0.N, (cfg0.win 3).flush t = true ∧ i ∈ ((cfg0.win 3).blk t).view.set := by
  have h0 : (i 0).val < 64 := (i 0).isLt
  have h1 : (i 1).val < 2000 := (i 1).isLt
  have h2 : (i 2).val < 1 := (i 2).isLt
  let t : Fin cfg0.N := ⟨(i 0).val, lt_of_lt_of_eq h0 N_0.symm⟩
  obtain ⟨-, -, -, -, -, -, -, -, e8, e9, e10⟩ := idx_facts t
  refine ⟨t, flush0_3 t, ?_⟩
  rw [mem_blk_mind]
  intro a
  match a with
  | ⟨0, _⟩ => show win0_3.index t (0 : Fin 3) * 1 ≤ (i 0).val ∧ (i 0).val < win0_3.index t (0 : Fin 3) * 1 + 1; rw [e8]; show (i 0).val * 1 ≤ (i 0).val ∧ (i 0).val < (i 0).val * 1 + 1; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 1 ≤ (i 2).val ∧ (i 2).val < win0_3.index t (2 : Fin 3) * 1 + 1; omega

/-- THE MINIMA after the region, in the column layout: the least clipped distance per image and prototype. -/
theorem mind_array (c : Dev nD) :
    (dat0 V c).arrAt 3 cfg0.N = Cert.Spec.mindCol (V c main_arg0) (V c main_arg1) :=
  (dat0 V c).arrAt_eq_of_cover 3 (Cert.Spec.mindCol (V c main_arg0) (V c main_arg1)) (fun t _ => flushed_mind V c t) cover_mind

end Cert.KernelIdeal.Region0

end
-- ==== Proof.LogitsPayload.lean ====
/-
  The second kernel's arithmetic at an index.

  Its one grid point holds the minima v0 [64, 2000] and the class weights v9 [200, 2000]. Each minimum d becomes the
  similarity log ((d + 1) / (d + ε)), pointwise; the result at (b, c) is the matrix product, into a zero accumulator,
  of the similarities' row b with the weights' row c over the 2000 prototypes (the operands' change of float format is
  the identity on the extended reals).
-/
import proofs.«102690_j82892868812969_2_alg».proof.Proof.Gen.KernelIdeal.Skeleton
import proofs.«102690_j82892868812969_2_alg».proof.Proof.Spec
import Idealize.ShloMosaic.Lib.ValueIdx
import Idealize.ShloMosaic.Lib.Pipeline.Value
import Idealize.ShloMosaic.PureOps.Ideal.Laws

noncomputable section

namespace Cert.KernelIdeal.LogitsValue

open Idealize.ShloMosaic Idealize.ShloMosaic.ValueIdx Cert.KernelIdeal Cert.KernelIdeal.Gen

/-- The operand indices of the product of a [64, 2000] by a [200, 2000] array over their second axes, at the output
    index (b, c): row b of the left operand, row c of the right. -/
theorem lhs_row (i : S64x200.Idx) (q : dot_S64x2000_S200x2000_S64x200_1_1_0_0_n_n.contr.Idx) :
    (dot_S64x2000_S200x2000_S64x200_1_1_0_0_n_n.lhsIdx i q 0).val = (i 0).val := by
  unfold DotDims.lhsIdx
  rw [dif_neg (show ¬(0 : Fin S64x2000.rank) ∈ dot_S64x2000_S200x2000_S64x200_1_1_0_0_n_n.lhsBatch by decide),
    dif_pos (show (0 : Fin S64x2000.rank) ∈ dot_S64x2000_S200x2000_S64x200_1_1_0_0_n_n.lhsNonContracting by decide)]
  rfl
theorem rhs_row (i : S64x200.Idx) (q : dot_S64x2000_S200x2000_S64x200_1_1_0_0_n_n.contr.Idx) :
    (dot_S64x2000_S200x2000_S64x200_1_1_0_0_n_n.rhsIdx i q 0).val = (i 1).val := by
  unfold DotDims.rhsIdx
  rw [dif_neg (show ¬(0 : Fin S200x2000.rank) ∈ dot_S64x2000_S200x2000_S64x200_1_1_0_0_n_n.rhsBatch by decide),
    dif_pos (show (0 : Fin S200x2000.rank) ∈ dot_S64x2000_S200x2000_S64x200_1_1_0_0_n_n.rhsNonContracting by decide)]
  rfl

/-- The matrix product into a zero accumulator, read at (b, c): the sum over the 2000 prototypes of row b of the left
    operand times row c of the right. -/
theorem headTile_apply (l : FVec Ideal S64x2000 .bf16) (r : FVec Ideal S200x2000 .bf16) (b : Fin 64) (c : Fin 200) :
    matmul dot_S64x2000_S200x2000_S64x200_1_1_0_0_n_n none l r (constant (F := Ideal) S64x200 .f32 0x00000000#32) (ix2 b c)
      = ∑ p : Fin 2000, l (ix2 b p) * r (ix2 c p) := by
  simp only [matmul]
  rw [Ideal.matmul_constant_zero_apply,
    ← Equiv.sum_comp (ValueIdx.contrEquiv1 dot_S64x2000_S200x2000_S64x200_1_1_0_0_n_n 2000 rfl rfl).symm]
  refine Finset.sum_congr rfl fun k _ => ?_
  have hk := ValueIdx.contrEquiv1_symm_val dot_S64x2000_S200x2000_S64x200_1_1_0_0_n_n 2000 rfl rfl k
  have el : dot_S64x2000_S200x2000_S64x200_1_1_0_0_n_n.lhsIdx (ix2 b c)
      ((ValueIdx.contrEquiv1 dot_S64x2000_S200x2000_S64x200_1_1_0_0_n_n 2000 rfl rfl).symm k) = ix2 b k :=
    funext fun a => Fin.ext (by
      match a with
      | ⟨0, _⟩ => exact lhs_row _ _
      | ⟨1, _⟩ => exact (dot_S64x2000_S200x2000_S64x200_1_1_0_0_n_n.lhsIdx_val_of_single rfl _ _).trans hk)
  have er : dot_S64x2000_S200x2000_S64x200_1_1_0_0_n_n.rhsIdx (ix2 b c)
      ((ValueIdx.contrEquiv1 dot_S64x2000_S200x2000_S64x200_1_1_0_0_n_n 2000 rfl rfl).symm k) = ix2 c k :=
    funext fun a => Fin.ext (by
      match a with
      | ⟨0, _⟩ => exact rhs_row _ _
      | ⟨1, _⟩ => exact (dot_S64x2000_S200x2000_S64x200_1_1_0_0_n_n.rhsIdx_val_of_single rfl _ _).trans hk)
  rw [el, er]

/-- The stored logits at (b, c), from the body's two loaded blocks: the similarities of row b of the minima against
    row c of the class weights. -/
theorem logits_apply (v0 : FVec Ideal S64x2000 .f32) (v9 : FVec Ideal S200x2000 .f32) (b : Fin 64) (c : Fin 200) :
    k1_pay1 (F := Ideal) v0 v9 (ix2 b c) = ∑ p : Fin 2000, Cert.Spec.act (v0 (ix2 b p)) * v9 (ix2 c p) := by
  unfold k1_pay1
  rw [headTile_apply]
  refine Finset.sum_congr rfl fun p _ => ?_
  simp only [truncf_apply, shapeCast_self]
  rfl

end Cert.KernelIdeal.LogitsValue

end
-- ==== Proof.Region1Value.lean ====
/-
  The second region's output array as a function of the arrays it finds.

  The region has ONE grid point. Its three blocks are the whole arrays (every block index is zero, every block as
  large as its array): it reads the minima [64, 2000] and the class weights [200, 2000] and writes back the logits
  [64, 200], so the logits array ends at the similarities of the minima it finds against the class weights it finds.
-/
import proofs.«102690_j82892868812969_2_alg».proof.Proof.Gen.KernelIdeal.Frame
import proofs.«102690_j82892868812969_2_alg».proof.Proof.LogitsPayload
import proofs.«102690_j82892868812969_2_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed index maps at the region's point: every block index is zero. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The minima's block is the whole array the region finds. -/
theorem mind_blk (c : Dev nD) (t : Fin cfg1.N) (b : Fin 64) (p : Fin 2000) :
    (iblk1 V c 0 t : FVec Ideal S64x2000 .f32) (ix2 b p) = (V c main_v1 : Cert.Spec.PerProto) (ix2 b p) := by
  obtain ⟨e0, e1, -⟩ := idx_facts t
  unfold iblk1
  rw [View.read_apply]
  show V c main_v1 _ = V c main_v1 _
  congr 1
  funext a
  apply Fin.ext
  match a with
  | ⟨0, _⟩ => show win1_0.index t (0 : Fin 2) * 64 + 1 * b.val = b.val; omega
  | ⟨1, _⟩ => show win1_0.index t (1 : Fin 2) * 2000 + 1 * p.val = p.val; omega

/-- The class weights' block is the whole array the region finds. -/
theorem head_blk (c : Dev nD) (t : Fin cfg1.N) (k : Fin 200) (p : Fin 2000) :
    (iblk1 V c 1 t : FVec Ideal S200x2000 .f32) (ix2 k p) = (V c main_arg2 : Cert.Spec.Head) (ix2 k p) := by
  obtain ⟨-, -, e2, e3, -⟩ := idx_facts t
  unfold iblk1
  rw [View.read_apply]
  show V c main_arg2 _ = V c main_arg2 _
  congr 1
  funext a
  apply Fin.ext
  match a with
  | ⟨0, _⟩ => show win1_1.index t (0 : Fin 2) * 200 + 1 * k.val = k.val; omega
  | ⟨1, _⟩ => show win1_1.index t (1 : Fin 2) * 2000 + 1 * p.val = p.val; omega

/-- The logits' block is the whole array. -/
theorem emb_logits (t : Fin cfg1.N) (b : Fin 64) (k : Fin 200) :
    ((cfg1.win 2).blk t).view.emb (ix2 b k) = (ix2 b k : S64x200.Idx) := by
  obtain ⟨-, -, -, -, e4, e5⟩ := idx_facts t
  funext a
  apply Fin.ext
  match a with
  | ⟨0, _⟩ => show win1_2.index t (0 : Fin 2) * 64 + 1 * b.val = b.val; omega
  | ⟨1, _⟩ => show win1_2.index t (1 : Fin 2) * 200 + 1 * k.val = k.val; omega

/-- What the point writes back is the logits of the arrays the region finds. -/
theorem flushed_logits (c : Dev nD) (t : Fin cfg1.N) :
    (dat1 V c).flushed 2 t
      = ((cfg1.win 2).blk t).view.read (Elt Ideal) (Cert.Spec.logits (V c main_v1) (V c main_arg2)) := by
  show (cfg1.win 2).cut (grid1.coords t) ((dat1 V c).after 2 t) = _
  rw [after1_2]
  unfold out1_2
  rw [View.canon_unit_zero hz2]
  simp only [View.ld_unit_zero (S := S64x2000) hz2, View.ld_unit_zero (S := S200x2000) hz2]
  funext j
  obtain ⟨b, k, rfl⟩ : ∃ (b : Fin 64) (k : Fin 200), j = ix2 b k := ⟨j 0, j 1, eq_ix2 j⟩
  rw [View.read_apply, emb_logits t b k]
  refine (LogitsValue.logits_apply (iblk1 V c 0 t) (iblk1 V c 1 t) b k).trans ?_
  have hm : ∀ p : Fin 2000, (iblk1 V c 0 t : FVec Ideal S64x2000 .f32) (ix2 b p)
      = (V c main_v1 : Cert.Spec.PerProto) (ix2 b p) := fun p => mind_blk V c t b p
  have hh : ∀ p : Fin 2000, (iblk1 V c 1 t : FVec Ideal S200x2000 .f32) (ix2 k p)
      = (V c main_arg2 : Cert.Spec.Head) (ix2 k p) := fun p => head_blk V c t k p
  simp only [hm, hh]
  rfl

/-- An index of the logits is in the point's block iff each coordinate is in the block's range on its axis. -/
theorem mem_blk_logits (t : Fin cfg1.N) (i : S64x200.Idx) :
    i ∈ ((cfg1.win 2).blk t).view.set ↔ ∀ a : Fin 2, win1_2.index t a * S64x200.size a ≤ (i a).val
      ∧ (i a).val < win1_2.index t a * S64x200.size a + S64x200.size a := by
  show i ∈ ((View.whole main_v2).slice (win1_2.rect t)).set ↔ _
  rw [View.set_slice_whole, Rect.mem_set_unit]
  exact Iff.rfl

/-- Every index of the logits is in the one point's block. -/
theorem cover_logits (i : S64x200.Idx) :
    ∃ t : Fin cfg1.N, (cfg1.win 2).flush t = true ∧ i ∈ ((cfg1.win 2).blk t).view.set := by
  have h0 : (i 0).val < 64 := (i 0).isLt
  have h1 : (i 1).val < 200 := (i 1).isLt
  obtain ⟨-, -, -, -, e4, e5⟩ := idx_facts t1_0
  refine ⟨t1_0, flush1_2 t1_0, ?_⟩
  rw [mem_blk_logits]
  intro a
  match a with
  | ⟨0, _⟩ => show win1_2.index t1_0 (0 : Fin 2) * 64 ≤ (i 0).val ∧ (i 0).val < win1_2.index t1_0 (0 : Fin 2) * 64 + 64; omega
  | ⟨1, _⟩ => show win1_2.index t1_0 (1 : Fin 2) * 200 ≤ (i 1).val ∧ (i 1).val < win1_2.index t1_0 (1 : Fin 2) * 200 + 200; omega

/-- THE LOGITS after the region: the similarities of the minima the region finds against the class weights it finds. -/
theorem logits_array (c : Dev nD) :
    (dat1 V c).arrAt 2 cfg1.N = Cert.Spec.logits (V c main_v1) (V c main_arg2) :=
  (dat1 V c).arrAt_eq_of_cover 2 (Cert.Spec.logits (V c main_v1) (V c main_arg2)) (fun t _ => flushed_logits V c t) cover_logits

end Cert.KernelIdeal.Region1

end
-- ==== Proof.KernelValue.lean ====
/-
  The idealized kernel's results as functions of its arguments.

  The last boundary's contents at each result, walked back to the regions' output arrays, meet the regions' arrays as
  functions of what each region finds:
    * the distance maps are the first region's, of the arguments as launched;
    * the minima are the first region's column of minima with its unit axis dropped by the reshape;
    * the logits are the second region's, of the minima it finds — that same reshape — and of the class weights as
      launched.
-/
import proofs.«102690_j82892868812969_2_alg».proof.Proof.KernelRun
import proofs.«102690_j82892868812969_2_alg».proof.Proof.Region0Value
import proofs.«102690_j82892868812969_2_alg».proof.Proof.Region1Value
import proofs.«102690_j82892868812969_2_alg».proof.Proof.LibColumn
import proofs.«102690_j82892868812969_2_alg».proof.Proof.Spec

set_option maxRecDepth 16384

noncomputable section

namespace Cert.KernelIdeal.Final

open Idealize.ShloMosaic Idealize.ShloMosaic.TcCoe Idealize.SL.Sem Idealize.ShloMosaic.ValueIdx
open Cert.KernelIdeal Cert.KernelIdeal.Gen Cert.KernelIdeal.RunValue

variable (m : (ℓ : Loc nD τ sig) → Buf (Elt Ideal) ℓ) (ρ : Dev nD → PrngReg)

/-- Dropping the unit axis of the column of minima gives the minima. -/
theorem mindCol_cast (x : Cert.Spec.Patches) (w : Cert.Spec.Protos) :
    shapeCast S64x2000 (Cert.Spec.mindCol x w) shapeCasts_S64x2000x1_S64x2000 = Cert.Spec.mind x w := by
  funext i
  obtain ⟨b, p, rfl⟩ : ∃ (b : Fin 64) (p : Fin 2000), i = ix2 b p := ⟨i 0, i 1, eq_ix2 i⟩
  rw [shapeCast_ab1_ab_apply]
  rfl

/-- The distance maps end at the specification's, of the arguments as launched. -/
theorem final_attn (c : Dev nD) :
    W3 m ρ c (Proc.devRef .tc main_v0_0)
      = Cert.Spec.attn (m ((c.tc : Thread nD τ).loc main_arg0)) (m ((c.tc : Thread nD τ).loc main_arg1)) :=
  (boundary_attn m ρ c).trans (Region0.attn_array (V0 m ρ) c)

/-- What the second region finds as minima: the specification's, of the arguments as launched. -/
theorem entry_mind_spec (c : Dev nD) :
    (V2 m ρ c main_v1 : Cert.Spec.PerProto)
      = Cert.Spec.mind (m ((c.tc : Thread nD τ).loc main_arg0)) (m ((c.tc : Thread nD τ).loc main_arg1)) := by
  refine (entry_mind m ρ c).trans ?_
  rw [Region0.mind_array (V0 m ρ) c]
  exact mindCol_cast _ _

/-- The minima end at the specification's, of the arguments as launched. -/
theorem final_mind (c : Dev nD) :
    W3 m ρ c (Proc.devRef .tc main_v1)
      = Cert.Spec.mind (m ((c.tc : Thread nD τ).loc main_arg0)) (m ((c.tc : Thread nD τ).loc main_arg1)) := by
  refine (boundary_mind m ρ c).trans ?_
  rw [Region0.mind_array (V0 m ρ) c]
  exact mindCol_cast _ _

/-- The logits end at the specification's, of those minima and of the class weights as launched. -/
theorem final_logits (c : Dev nD) :
    W3 m ρ c (Proc.devRef .tc main_v2)
      = Cert.Spec.logits (Cert.Spec.mind (m ((c.tc : Thread nD τ).loc main_arg0)) (m ((c.tc : Thread nD τ).loc main_arg1)))
          (m ((c.tc : Thread nD τ).loc main_arg2)) := by
  refine (boundary_logits m ρ c).trans ((Region1.logits_array (V2 m ρ) c).trans ?_)
  have e1 := entry_mind_spec m ρ c
  have e2 : (V2 m ρ c main_arg2 : Cert.Spec.Head) = m ((c.tc : Thread nD τ).loc main_arg2) := entry_head m ρ c
  rw [e1, e2]

/-- THE RUN, READ: every weakly fair execution of the idealized kernel terminates, nothing faulting, with the logits,
    the distance maps and the minima at the specification's functions of the arguments, the arguments unchanged. -/
theorem run : θ_run defs (onTc (τ := τ) (main (F := Ideal))) ⟨m, fun _ => 0, ρ⟩ (fun r => ∀ c : Dev nD,
      r.2.mem ((c.tc : Thread nD τ).loc main_v2)
          = Cert.Spec.logits (Cert.Spec.mind (m ((c.tc : Thread nD τ).loc main_arg0)) (m ((c.tc : Thread nD τ).loc main_arg1)))
              (m ((c.tc : Thread nD τ).loc main_arg2))
      ∧ r.2.mem ((c.tc : Thread nD τ).loc main_v0_0)
          = Cert.Spec.attn (m ((c.tc : Thread nD τ).loc main_arg0)) (m ((c.tc : Thread nD τ).loc main_arg1))
      ∧ r.2.mem ((c.tc : Thread nD τ).loc main_v1)
          = Cert.Spec.mind (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c).1.trans (final_logits m ρ c), (h c).2.1.trans (final_attn m ρ c), (h c).2.2.1.trans (final_mind m ρ c), (h c).2.2.2⟩)
    (run_boundary m ρ)

end Cert.KernelIdeal.Final

end
-- ==== Proof.RefValue.lean ====
/-
  The reference's three results are the specification.

  The reference computes the patch norms and the prototype norms as host sums from zero, the inner products as one
  contraction of the patch array with the prototype array (the patch as the LEFT factor of each product, where the
  kernel has it on the right: multiplication on the extended reals commutes), combines them in the same grouping
  (norm minus twice the product, plus the prototype norm), clips at zero, transposes the last two axes, and takes the
  minimum over the last axis from +∞; then the similarity, pointwise, and the contraction with the transposed class
  weights. Read at an index through the generated stage lemmas, each result is the specification's function.
-/
import proofs.«102690_j82892868812969_2_alg».proof.Proof.Gen.ReferenceIdeal.Read
import proofs.«102690_j82892868812969_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-! ## Where the composed index maps land -/

theorem at_transposed (b : Fin 64) (p : Fin 2000) (n : Fin 256) : idx_main_v14 (ix3 b p n) = ix3 b n p :=
  funext fun a => Fin.ext (by match a with | ⟨0, _⟩ => rfl | ⟨1, _⟩ => rfl | ⟨2, _⟩ => rfl)
theorem at_patchNorm (b : Fin 64) (n : Fin 256) (p : Fin 2000) (k : Fin 1024) :
    idx_main_v1 (idx_main_v2 (idx_main_v8 (ix3 b n p))) k = ix3 b n k :=
  funext fun a => Fin.ext (by match a with | ⟨0, _⟩ => rfl | ⟨1, _⟩ => rfl | ⟨2, _⟩ => rfl)
theorem at_crossL (b : Fin 64) (n : Fin 256) (p : Fin 2000) (k : Fin 1024) : lidx_main_v5 (ix3 b n p) k = ix3 b n k :=
  funext fun a => Fin.ext (by match a with | ⟨0, _⟩ => rfl | ⟨1, _⟩ => rfl | ⟨2, _⟩ => rfl)
theorem at_crossR (b : Fin 64) (n : Fin 256) (p : Fin 2000) (k : Fin 1024) : ridx_main_v5 (ix3 b n p) k = ix2 p k :=
  funext fun a => Fin.ext (by match a with | ⟨0, _⟩ => rfl | ⟨1, _⟩ => rfl)
theorem at_protoNorm (b : Fin 64) (n : Fin 256) (p : Fin 2000) (k : Fin 1024) :
    idx_main_v4 (idx_main_v10 (idx_main_v11 (ix3 b n p))) k = ix2 p k :=
  funext fun a => Fin.ext (by match a with | ⟨0, _⟩ => rfl | ⟨1, _⟩ => rfl)
theorem at_actRow (b : Fin 64) (k : Fin 200) (p : Fin 2000) : lidx_main_v23 (ix2 b k) p = ix2 b p :=
  funext fun a => Fin.ext (by match a with | ⟨0, _⟩ => rfl | ⟨1, _⟩ => rfl)
theorem at_headRow (b : Fin 64) (k : Fin 200) (p : Fin 2000) : idx_main_v22 (ridx_main_v23 (ix2 b k) p) = ix2 k p :=
  funext fun a => Fin.ext (by match a with | ⟨0, _⟩ => rfl | ⟨1, _⟩ => rfl)

/-! ## The distance maps -/

/-- The reference's distance maps are the specification's. -/
theorem attn_eq (x0 : Cert.Spec.Patches) (x1 : Cert.Spec.Protos) :
    val_main_v14 (F := Ideal) x0 x1 = Cert.Spec.attn x0 x1 := by
  funext i
  obtain ⟨b, p, n, rfl⟩ : ∃ (b : Fin 64) (p : Fin 2000) (n : Fin 256), i = ix3 b p n := ⟨i 0, i 1, i 2, eq_ix3 i⟩
  rw [val_main_v14_apply, at_transposed, val_main_v13_apply, val_main_v12_apply, val_main_v9_apply, val_main_v8_apply,
    val_main_v2_apply, val_main_v1_apply, val_main_v7_apply, val_main_v6_apply, val_main_v5_apply, val_main_v11_apply,
    val_main_v10_apply, val_main_v4_apply, val_main_call0_v0_apply]
  simp only [at_patchNorm, at_crossL, at_crossR, at_protoNorm, val_main_v0_apply, val_main_v3_apply, val_main_cst_apply,
    val_main_cst_0_apply, val_main_cst_1_apply, val_main_call0_cst_apply, Ideal.mulf_def, Ideal.addf_def, Ideal.subf_def,
    Ideal.maximumf_def, Ideal.ofBits_def]
  show _ = Cert.Spec.dist x0 x1 b p n
  unfold Cert.Spec.dist Cert.Spec.sqPatch Cert.Spec.sqProto
  rw [← Cert.Spec.cross_comm, Ideal.ofBits_zero_f32, zero_add, zero_add]

/-! ## The minima -/

/-- The last axis of a [64, 2000, 256] array reduces onto [64, 2000]. -/
theorem reduces_last : S64x2000x256.Reduces [2] S64x2000 := by decide

/-- The host's minimum over the last axis, from +∞, read at (b, p): the fold of min over the 256 entries (b, p, ·). -/
theorem minLast_apply (y : FVec Ideal S64x2000x256 .f32) (b : Fin 64) (p : Fin 2000) :
    Host.reduce (FloatOps.minimumf (F := Ideal) (φ := .f32)) y (val_main_cst_2 (F := Ideal))
        reducesTo_S64x2000x256_S64x2000_d2 h_S_ (ix2 b p)
      = (Finset.univ : Finset (Fin 256)).fold (FloatOps.minimumf (F := Ideal) (φ := .f32))
          (FloatOps.ofBits .f32 0x7F800000#32) (fun n => y (ix3 b p n)) := by
  refine (Host.reduce_eq_fold_single (u := S_) (FloatOps.minimumf (F := Ideal) (φ := .f32)) y (val_main_cst_2 (F := Ideal))
    reducesTo_S64x2000x256_S64x2000_d2 reduces_last h_S_ (ix2 b p)).trans ?_
  exact congrArg (fun f => Finset.fold _ _ f Finset.univ) (funext fun n => congrArg y (funext fun a => Fin.ext (by
    match a with
    | ⟨0, _⟩ => rfl
    | ⟨1, _⟩ => rfl
    | ⟨2, _⟩ => rfl)))

/-- The reference's minima are the specification's. -/
theorem mind_eq (x0 : Cert.Spec.Patches) (x1 : Cert.Spec.Protos) :
    val_main_v15 (F := Ideal) x0 x1 = Cert.Spec.mind x0 x1 := by
  funext i
  obtain ⟨b, p, rfl⟩ : ∃ (b : Fin 64) (p : Fin 2000), i = ix2 b p := ⟨i 0, i 1, eq_ix2 i⟩
  unfold val_main_v15
  rw [minLast_apply, attn_eq]
  rfl

/-! ## The logits -/

/-- The reference's logits are the specification's, of the specification's minima. -/
theorem logits_eq (x0 : Cert.Spec.Patches) (x1 : Cert.Spec.Protos) (x2 : Cert.Spec.Head) :
    val_main_v23 (F := Ideal) x0 x1 x2 = Cert.Spec.logits (Cert.Spec.mind x0 x1) x2 := by
  funext i
  obtain ⟨b, k, rfl⟩ : ∃ (b : Fin 64) (k : Fin 200), i = ix2 b k := ⟨i 0, i 1, eq_ix2 i⟩
  rw [val_main_v23_apply]
  refine Finset.sum_congr rfl fun p _ => ?_
  rw [val_main_v22_apply, at_headRow, at_actRow, val_main_v21_apply, val_main_v20_apply, val_main_v17_apply,
    val_main_v19_apply, val_main_v16_apply, val_main_v18_apply, mind_eq]
  rfl

end Cert.ReferenceIdeal.RefValue

end
-- ==== Proof.lean ====
/-
  The two programs compute one function of their arguments over the extended reals.

  For patch features x [64, 256, 1024], prototypes w [2000, 1024] and class weights h [200, 2000] both programs return
    * the distance maps  max ((|x b n|² - 2 · ⟨w p, x b n⟩) + |w p|²) 0  at (b, p, n),
    * their minima over the patches n, from +∞, at (b, p),
    * the logits  ∑ p, log ((d b p + 1) / (d b p + ε)) · h c p  of those minima d, at (b, c)
  (Proof/Spec.lean). The kernel does it in two regions with a reshape between them — one image per grid point in the
  first, the whole arrays at the one point of the second — and the reference in one line of host operations. Nothing
  distributes over a sum and nothing cancels: the two sides differ by the order of the factors inside the inner
  product, by a zero a host sum starts from, and by where the last two axes are exchanged, so no finiteness of the
  inputs is used.

  The three frames are the generated ones (the reference's is its generated run with the results dropped); the kernel
  is its own idealization, no operation rewritten; the results' equality is assembled below from the kernel's run read
  at its results (Proof/KernelValue.lean) and the reference's stages read at an index (Proof/RefValue.lean).
-/
import proofs.«102690_j82892868812969_2_alg».proof.Defs
import proofs.«102690_j82892868812969_2_alg».proof.Proof.Gen.Kernel
import proofs.«102690_j82892868812969_2_alg».proof.Proof.Gen.Kernel.Skeleton
import proofs.«102690_j82892868812969_2_alg».proof.Proof.Gen.Kernel.Launch
import proofs.«102690_j82892868812969_2_alg».proof.Proof.Gen.Kernel.Points
import proofs.«102690_j82892868812969_2_alg».proof.Proof.Gen.Kernel.Frame
import proofs.«102690_j82892868812969_2_alg».proof.Proof.Gen.KernelIdeal
import proofs.«102690_j82892868812969_2_alg».proof.Proof.Gen.KernelIdeal.Skeleton
import proofs.«102690_j82892868812969_2_alg».proof.Proof.Gen.KernelIdeal.Launch
import proofs.«102690_j82892868812969_2_alg».proof.Proof.Gen.KernelIdeal.Points
import proofs.«102690_j82892868812969_2_alg».proof.Proof.Gen.KernelIdeal.Frame
import proofs.«102690_j82892868812969_2_alg».proof.Proof.Gen.ReferenceIdeal
import proofs.«102690_j82892868812969_2_alg».proof.Proof.Gen.ReferenceIdeal.Run
import proofs.«102690_j82892868812969_2_alg».proof.Proof.Gen.ReferenceIdeal.Read
import proofs.«102690_j82892868812969_2_alg».proof.Proof.Gen.Pre_finite_inputs
import proofs.«102690_j82892868812969_2_alg».proof.Proof.KernelValue
import proofs.«102690_j82892868812969_2_alg».proof.Proof.RefValue
import Idealize.ShloMosaic.Adequacy
import Idealize.ShloMosaic.Init

noncomputable section

namespace Cert.Proof

open Idealize.ShloMosaic Idealize.SL.Sem

/-- Every execution of the kernel as printed terminates with its arguments unchanged. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The same of the reference: its run, with what it says of the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the three arguments, the idealized kernel and the idealized reference both end with
    the specification's logits, distance maps and minima of those arguments. -/
theorem algebraic : Cert.algebraic_KernelIdeal_ReferenceIdeal := by
  intro m ρ m' ρ' _ hagree
  refine ⟨_, _, _, Cert.KernelIdeal.Final.run m ρ, ?_⟩
  refine (θ_run Cert.ReferenceIdeal.defs _ _).mono (fun _ h c => ?_) (Cert.ReferenceIdeal.Value.run (F := Ideal) m' ρ')
  obtain ⟨h23, h14, h15, hargs⟩ := h c
  obtain ⟨a0, a1, a2⟩ := hagree c
  refine ⟨h23.trans ?_, h14.trans ?_, h15.trans ?_, hargs⟩
  · rw [Cert.ReferenceIdeal.Read.val_main_v23_eq, Cert.ReferenceIdeal.RefValue.logits_eq, a0, a1, a2]
  · rw [Cert.ReferenceIdeal.Read.val_main_v14_eq, Cert.ReferenceIdeal.RefValue.attn_eq, a0, a1]
  · rw [Cert.ReferenceIdeal.Read.val_main_v15_eq, Cert.ReferenceIdeal.RefValue.mind_eq, a0, a1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
